-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S768 : Shape := ⟨1, ![768]⟩
abbrev S16x4096 : Shape := ⟨2, ![16, 4096]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S768 : S_.BroadcastsInDim S768 (![] : Fin 0 → Fin S768.rank)
  reducesTo_S768_S_d0 : S768.ReducesTo [0] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S16x4096x768 .f32) (main_arg1 : FVec F S768 .f32) (main_arg2 : FVec F S16x4096 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S16x4096x768 : Shape := ⟨3, ![16, 4096, 768]⟩
abbrev S768 : Shape := ⟨1, ![768]⟩
abbrev S16x4096 : Shape := ⟨2, ![16, 4096]⟩
abbrev S_ : Shape := ⟨0, ![]⟩
abbrev S16x4106 : Shape := ⟨2, ![16, 4106]⟩
abbrev S1x768 : Shape := ⟨2, ![1, 768]⟩
abbrev S16x128x768 : Shape := ⟨3, ![16, 128, 768]⟩
abbrev S16x128 : Shape := ⟨2, ![16, 128]⟩
abbrev S16x128x1 : Shape := ⟨3, ![16, 128, 1]⟩
abbrev S1x1x768 : Shape := ⟨3, ![1, 1, 768]⟩

abbrev nBuf : Space → Nat
  | .hbm => 22
  | .vmem => 9
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .i1⟩
  | .hbm, ⟨6, _⟩ => ⟨S16x4096, .i32⟩
  | .hbm, ⟨7, _⟩ => ⟨S_, .i32⟩
  | .hbm, ⟨8, _⟩ => ⟨S_, .i32⟩
  | .hbm, ⟨9, _⟩ => ⟨S16x4096, .i32⟩
  | .hbm, ⟨10, _⟩ => ⟨S_, .i32⟩
  | .hbm, ⟨11, _⟩ => ⟨S_, .i32⟩
  | .hbm, ⟨12, _⟩ => ⟨S16x4106, .i32⟩
  | .hbm, ⟨13, _⟩ => ⟨S16x4096, .i32⟩
  | .hbm, ⟨14, _⟩ => ⟨S16x4096, .i32⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S16x4096, .i32⟩
  | .hbm, ⟨19, _⟩ => ⟨S1x768, .f32⟩
  | .hbm, ⟨20, _⟩ => ⟨S16x4096x768, .f32⟩
  | .hbm, ⟨21, _⟩ => ⟨S16x4096, .f32⟩
  | .local _ .vmem, ⟨0, _⟩ => ⟨S16x128x768, .f32⟩
  | .local _ .vmem, ⟨1, _⟩ => ⟨S16x128x768, .f32⟩
  | .local _ .vmem, ⟨2, _⟩ => ⟨S16x128, .i32⟩
  | .local _ .vmem, ⟨3, _⟩ => ⟨S16x128, .i32⟩
  | .local _ .vmem, ⟨4, _⟩ => ⟨S1x768, .f32⟩
  | .local _ .vmem, ⟨5, _⟩ => ⟨S16x128x768, .f32⟩
  | .local _ .vmem, ⟨6, _⟩ => ⟨S16x128x768, .f32⟩
  | .local _ .vmem, ⟨7, _⟩ => ⟨S16x128, .f32⟩
  | .local _ .vmem, ⟨8, _⟩ => ⟨S16x128, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x4096 : S_.BroadcastsInDim S16x4096 (![] : Fin 0 → Fin S16x4096.rank)
  natLt_1_32 : 1 < 32
  bcast_S_S_ : S_.BroadcastsInDim S_ (![] : Fin 0 → Fin S_.rank)
  reduceWindows_S16x4096_S16x4096_w1s1p0_0_w4096s1p4095_0 : S16x4096.ReduceWindows (![1, 4096] : Fin 2 → Nat) ![1, 1] ![0, 4095] ![0, 0] S16x4096
  h_S_ : 0 < S_.numel
  pads_S16x4096_S16x4106_000_1000 : S16x4096.Pads (![0, 10] : Fin 2 → Nat) ![0, 0] ![0, 0] S16x4106
  slices_S16x4106_S16x4096_0_0 : S16x4106.Slices ![0, 0] S16x4096
  shapeCasts_S768_S1x768 : S768.ShapeCasts S1x768
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  shapeCasts_S16x128x1_S16x128x1 : S16x128x1.ShapeCasts S16x128x1
  broadcasts_S16x128x1_S16x128x768 : S16x128x1.Broadcasts S16x128x768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S768_S1x1x768 : S768.ShapeCasts S1x1x768
  shapeCasts_S1x1x768_S1x1x768 : S1x1x768.ShapeCasts S1x1x768
  broadcasts_S1x1x768_S16x128x768 : S1x1x768.Broadcasts S16x128x768
  inb_S16x128x768_S16x128x768_0_0_0 : ∀ a, (![0, 0, 0] : Fin 3 → Nat) a + S16x128x768.size a ≤ S16x128x768.size a
  h_S16x128x768 : 0 < S16x128x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x768.size a ≤ S16x4096x768.size a
  hwx0_0 : ∀ i : grid0.Coords, EltTy.bits .f32 = 32 ∨ (Rect.block (s := S16x4096x768) S16x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x4096.size a
  hwx0_1 : ∀ i : grid0.Coords, EltTy.bits .i32 = 32 ∨ (Rect.block (s := S16x4096) S16x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x768.size a ≤ S16x4096x768.size a
  hwx0_3 : ∀ i : grid0.Coords, EltTy.bits .f32 = 32 ∨ (Rect.block (s := S16x4096x768) S16x128x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x4096.size a
  hwx0_4 : ∀ i : grid0.Coords, EltTy.bits .f32 = 32 ∨ (Rect.block (s := S16x4096) S16x128.size (cc0_transform_4 i) (hinb0_4 i)).WholeWords (EltTy.packing .f32)

variable [Facts₀]

abbrev win0_0 : Pipeline.Window sig grid0 :=
  Pipeline.Window.ofSpec (Memref.whole main_arg0) S16x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S16x128x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S768 : Shape := ⟨1, ![768]⟩
abbrev S16x4096 : Shape := ⟨2, ![16, 4096]⟩
abbrev S_ : Shape := ⟨0, ![]⟩
abbrev S16x4106 : Shape := ⟨2, ![16, 4106]⟩
abbrev S16x4096x1 : Shape := ⟨3, ![16, 4096, 1]⟩
abbrev S1x1x768 : Shape := ⟨3, ![1, 1, 768]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S768, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .i1⟩
  | .hbm, ⟨6, _⟩ => ⟨S16x4096, .i32⟩
  | .hbm, ⟨7, _⟩ => ⟨S_, .i32⟩
  | .hbm, ⟨8, _⟩ => ⟨S_, .i32⟩
  | .hbm, ⟨9, _⟩ => ⟨S16x4096, .i32⟩
  | .hbm, ⟨10, _⟩ => ⟨S_, .i32⟩
  | .hbm, ⟨11, _⟩ => ⟨S_, .i32⟩
  | .hbm, ⟨12, _⟩ => ⟨S16x4106, .i32⟩
  | .hbm, ⟨13, _⟩ => ⟨S16x4096, .i32⟩
  | .hbm, ⟨14, _⟩ => ⟨S16x4096, .i32⟩
  | .hbm, ⟨15, _⟩ => ⟨S_, .i32⟩
  | .hbm, ⟨16, _⟩ => ⟨S16x4096, .i32⟩
  | .hbm, ⟨17, _⟩ => ⟨S16x4096, .i1⟩
  | .hbm, ⟨18, _⟩ => ⟨S16x4096x1, .i1⟩
  | .hbm, ⟨19, _⟩ => ⟨S1x1x768, .f32⟩
  | .hbm, ⟨20, _⟩ => ⟨S16x4096x768, .i1⟩
  | .hbm, ⟨21, _⟩ => ⟨S16x4096x768, .f32⟩
  | .hbm, ⟨22, _⟩ => ⟨S16x4096x768, .f32⟩
  | .hbm, ⟨23, _⟩ => ⟨S_, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096, .f32⟩
  | .hbm, ⟨28, _⟩ => ⟨S16x4096, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call2_v0 : Ref sig .tc := ⟨.hbm, 20, rfl⟩
abbrev main_call2_v1 : Ref sig .tc := ⟨.hbm, 21, rfl⟩
abbrev main_v11 : Ref sig .tc := ⟨.hbm, 22, rfl⟩
abbrev main_cst_1 : Ref sig .tc := ⟨.hbm, 23, rfl⟩
abbrev main_cst_2 : Ref sig .tc := ⟨.hbm, 24, rfl⟩
abbrev main_call3_v0 : Ref sig .tc := ⟨.hbm, 25, rfl⟩
abbrev main_call3_v1 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  natLt_1_32 : 1 < 32
  bcast_S_S_ : S_.BroadcastsInDim S_ (![] : Fin 0 → Fin S_.rank)
  reduceWindows_S16x4096_S16x4096_w1s1p0_0_w4096s1p4095_0 : S16x4096.ReduceWindows (![1, 4096] : Fin 2 → Nat) ![1, 1] ![0, 4095] ![0, 0] S16x4096
  h_S_ : 0 < S_.numel
  pads_S16x4096_S16x4106_000_1000 : S16x4096.Pads (![0, 10] : Fin 2 → Nat) ![0, 0] ![0, 0] S16x4106
  slices_S16x4106_S16x4096_0_0 : S16x4106.Slices ![0, 0] S16x4096
  bcast_S16x4096_S16x4096x1_0_1 : S16x4096.BroadcastsInDim S16x4096x1 (![0, 1] : Fin 2 → Fin S16x4096x1.rank)
  bcast_S768_S1x1x768_2 : S768.BroadcastsInDim S1x1x768 (![2] : Fin 1 → Fin S1x1x768.rank)
  bcast_S16x4096x1_S16x4096x768_0_1_2 : S16x4096x1.BroadcastsInDim S16x4096x768 (![0, 1, 2] : Fin 3 → Fin S16x4096x768.rank)
  bcast_S1x1x768_S16x4096x768_0_1_2 : S1x1x768.BroadcastsInDim S16x4096x768 (![0, 1, 2] : Fin 3 → Fin S16x4096x768.rank)

variable [Facts₀]

class Facts : Prop extends Facts₀ where

variable [Facts]
-- ==== Proof.Spec.lean ====
/-
  The specification both programs meet.

  A position (b, t) of the [16, 4096] grid is MASKED when a span of length 10 that started at some
  t' in (t - 10, t] covers it.  A span starts where rand[b, t'] < 0.065; with c the running count of
  starts along t (an inclusive prefix sum) and c' the same count shifted right by ten places (zero
  for the first ten), the position is masked iff c - c' > 0.  `spanMask` is that chain of integer
  operations, one bit per position.  It is never opened below: both programs compute it by the same
  operations from the same array, so it is carried as one function of `rand`.

  Given the mask M, the two results are
    filled  M tok x [b, t, d] = if M[b, t] then tok[d] else x[b, t, d]
    penalty M       [b, t]    = if M[b, t] then -inf   else 0
  where -inf and 0 are the float words 0xFF800000 and 0x00000000, the same words in both programs.
-/
import proofs.«148561_j24446953849432_2_alg».proof.KernelIdeal
import Idealize.ShloMosaic.PureOps

noncomputable section

namespace Cert.SpanFill

open Idealize.ShloMosaic Cert.KernelIdeal

variable {F : FTy → Type} [FloatOps F] [Cert.KernelIdeal.Facts]
open Cert.KernelIdeal.Facts₀ Cert.KernelIdeal.Facts

/-- The (b, t) part of an index (b, t, d). -/
def rowOf (i : S16x4096x768.Idx) : S16x4096.Idx := fun a => match a with
  | ⟨0, _⟩ => ⟨(i 0).val, (i 0).isLt⟩
  | ⟨1, _⟩ => ⟨(i 1).val, (i 1).isLt⟩

/-- The d part of an index (b, t, d). -/
def laneOf (i : S16x4096x768.Idx) : S768.Idx := fun a => match a with
  | ⟨0, _⟩ => ⟨(i 2).val, (i 2).isLt⟩

/-- One bit per position (b, t): does a span of length ten cover it?  The starts are the positions
    with rand < 0.065; the bit is set iff the number of starts up to t exceeds the number of starts
    up to t - 10. -/
def spanMask (rand : FVec F S16x4096 .f32) : IVec S16x4096 1 :=
  let starts : IVec S16x4096 32 :=
    extui 32 (cmpf .olt rand (broadcastInDim S16x4096 ![] bcast_S_S16x4096 (constant S_ .f32 0x3D851EB8#32))) natLt_1_32
  let count : IVec S16x4096 32 :=
    Host.reduceWindow IntOp.addi ![1, 4096] ![1, 1] ![0, 4095] ![0, 0] starts
      (broadcastInDim S_ ![] bcast_S_S_ (constantI S_ 32 0#32))
      reduceWindows_S16x4096_S16x4096_w1s1p0_0_w4096s1p4095_0 h_S_
  let shifted : IVec S16x4096 32 :=
    extractStridedSlice S16x4096 ![0, 0]
      (pad S16x4106 ![0, 10] ![0, 0] ![0, 0] count (constantI S_ 32 0#32) pads_S16x4096_S16x4106_000_1000 h_S_)
      slices_S16x4106_S16x4096_0_0
  cmpi .sgt (subi count shifted) (broadcastInDim S16x4096 ![] bcast_S_S16x4096 (constantI S_ 32 0#32))

/-- The first result: the token's lane d at a masked position, the input elsewhere. -/
def filled (M : IVec S16x4096 1) (tok : FVec F S768 .f32) (x : FVec F S16x4096x768 .f32) : FVec F S16x4096x768 .f32 :=
  fun i => Scalar.select (M (rowOf i)) (tok (laneOf i)) (x i)

/-- The second result: -inf at a masked position, zero elsewhere. -/
def penalty (M : IVec S16x4096 1) : FVec F S16x4096 .f32 :=
  fun j => Scalar.select (M j) (Scalar.ofBits .f32 0xFF800000#32) (Scalar.ofBits .f32 0x00000000#32)

/-- A bit widened to 32 bits is nonzero exactly when the bit is set. -/
theorem ne_zero_setWidth (b : BitVec 1) : IntOp.cmpi .ne (b.setWidth 32) 0#32 = b := by
  rcases BitVec.eq_zero_or_eq_one b with h | h <;> subst h <;> decide

end Cert.SpanFill

end
-- ==== Proof.KernelEntry.lean ====
/-
  What the kernel's region finds in the two arrays the host prepares for it.

  Before the region is entered the host computes the span mask from `rand`, widens each bit to a
  32-bit integer (window 1's array) and views the token [768] as a [1, 768] row (window 2's array).
  Read back from the fold of the host operations:
    array 1 = the span mask of rand, each bit zero-extended to 32 bits;
    array 2 = the token under the shape [1, 768].
-/
import proofs.«148561_j24446953849432_2_alg».proof.Proof.Gen.KernelIdeal.Frame
import proofs.«148561_j24446953849432_2_alg».proof.Proof.Spec
import Idealize.ShloMosaic.Lib.StableHlo.Run

noncomputable section

namespace Cert.SpanFill

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The integer array the region's second window reads is the span mask of `rand`, widened. -/
theorem entry_mask (c : Dev nD) :
    (V m c main_v9 : IVec S16x4096 32) = extui 32 (spanMask (m ((c : Thread nD τ).loc main_arg2))) natLt_1_32 := by
  dsimp only [Gen.V]
  simp only [hostOps0, hostOps0_1, hostOps0_2, hostOps0_3, hostOps0_4, List.flatten_cons, List.flatten_nil,
    List.append_nil, List.cons_append, List.nil_append]
  after_results
  simp only [cast_eq]
  rfl

/-- The row the region's third window reads is the token, reshaped. -/
theorem entry_tok (c : Dev nD) :
    (V m c main_v10 : FVec F S1x768 .f32) = shapeCast S1x768 (m ((c : Thread nD τ).loc main_arg1)) shapeCasts_S768_S1x768 := by
  dsimp only [Gen.V]
  simp only [hostOps0, hostOps0_1, hostOps0_2, hostOps0_3, hostOps0_4, List.flatten_cons, List.flatten_nil,
    List.append_nil, List.cons_append, List.nil_append]
  after_results
  simp only [cast_eq]
  rfl

end Cert.SpanFill

end
-- ==== Proof.KernelBlocks.lean ====
/-
  From the blocks the kernel writes to the two whole result arrays.

  The grid has 32 points; point t handles positions 128 t .. 128 t + 127 of the axis of length 4096,
  all 16 rows and (for the first result) all 768 lanes.  At point t the body reads the block of x,
  the block of the widened mask and the whole token row, and stores
    select (mask32 ≠ 0) token x        into the block of the first result,
    select (mask32 ≠ 0) (-inf) 0       into the block of the second.
  A widened bit is nonzero exactly when the bit is set, the widened mask's block at t sits at the
  same (b, t) positions as the result's block, and the token row is the token itself: so what point
  t writes back is block t of `filled` (of `penalty`) of the span mask.  The 32 blocks tile the axis
  (position p lies in block p / 128), hence each result array ends as that one function.
-/
import proofs.«148561_j24446953849432_2_alg».proof.Proof.Gen.KernelIdeal.Value
import proofs.«148561_j24446953849432_2_alg».proof.Proof.KernelEntry
import Idealize.ShloMosaic.Lib.Pipeline.Value

noncomputable section

namespace Cert.SpanFill

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point t: every window sits at block 0 on the row and lane axes; x, the
    mask and both results sit at block t on the position axis; the token row never moves. -/
theorem block_indices : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = t.val :=
  (by decide +kernel : ∀ t : Fin grid0.N, _)

/-- One element of the first result's block, over arrays as variables: where the widened mask is
    read at the element's (b, t), the token row at its lane and x at the element itself, the stored
    value is `filled` there. -/
theorem filled_at (M : IVec S16x4096 1) (tok : FVec F S768 .f32) (x : FVec F S16x4096x768 .f32)
    (k1 : S16x4096.Idx) (k2 : S1x768.Idx) (k0 i : S16x4096x768.Idx)
    (h1 : k1 = rowOf i) (h2 : (k2 0).val = 0 ∧ (k2 1).val = (i 2).val) (h0 : k0 = i) :
    Scalar.select (IntOp.cmpi .ne ((extui 32 M natLt_1_32) k1) 0#32) (shapeCast S1x768 tok shapeCasts_S768_S1x768 k2) (x k0)
      = filled M tok x i := by
  subst h1 h0
  have e : shapeCast S1x768 tok shapeCasts_S768_S1x768 k2 = tok (laneOf k0) := by
    refine shapeCast_apply _ _ k2 (laneOf k0) ?_
    rw [Shape.rowMajor_val_one, Shape.rowMajor_val_two]
    show (k0 2).val = (k2 0).val * 768 + (k2 1).val
    omega
  show Scalar.select (IntOp.cmpi .ne ((M (rowOf k0)).setWidth 32) 0#32) _ _ = Scalar.select (M (rowOf k0)) (tok (laneOf k0)) (x k0)
  rw [ne_zero_setWidth, e]

/-- One element of the second result's block. -/
theorem penalty_at (M : IVec S16x4096 1) (k1 j : S16x4096.Idx) (h1 : k1 = j) :
    Scalar.select (IntOp.cmpi .ne ((extui 32 M natLt_1_32) k1) 0#32) (Scalar.ofBits .f32 0xFF800000#32) (Scalar.ofBits .f32 0x00000000#32)
      = penalty (F := F) M j := by
  subst h1
  show Scalar.select (IntOp.cmpi .ne ((M k1).setWidth 32) 0#32) _ _ = Scalar.select (M k1) _ _
  rw [ne_zero_setWidth]

/-- The widened mask's block at point t, read off the array the host prepared. -/
theorem mask_block (c : Dev nD) (t : Fin cfg0.N) :
    iblk m c 1 t = fun y => (extui 32 (spanMask (m ((c : Thread nD τ).loc main_arg2))) natLt_1_32) (((cfg0.win 1).blk t).view.emb y) :=
  (show iblk m c 1 t = fun y => V m c main_v9 (((cfg0.win 1).blk t).view.emb y) from rfl).trans (by rw [entry_mask m c])

/-- The token row's block (the whole row, at every point). -/
theorem tok_block (c : Dev nD) (t : Fin cfg0.N) :
    iblk m c 2 t = fun y => (shapeCast S1x768 (m ((c : Thread nD τ).loc main_arg1)) shapeCasts_S768_S1x768) (((cfg0.win 2).blk t).view.emb y) :=
  (show iblk m c 2 t = fun y => V m c main_v10 (((cfg0.win 2).blk t).view.emb y) from rfl).trans (by rw [entry_tok m c])

/-- The block of x at point t: the host writes nothing to x before the region. -/
theorem x_block (c : Dev nD) (t : Fin cfg0.N) :
    iblk m c 0 t = fun y => m ((c : Thread nD τ).loc main_arg0) (((cfg0.win 0).blk t).view.emb y) :=
  (show iblk m c 0 t = fun y => V m c main_arg0 (((cfg0.win 0).blk t).view.emb y) from rfl).trans (by rw [V_main_arg0 m c])

/-- What point t writes back to the first result is block t of `filled`. -/
theorem filled_block (c : Dev nD) (t : Fin cfg0.N) :
    (dats m 0 c).flushed 3 t = ((cfg0.win 3).blk t).view.read (Elt F)
      (filled (spanMask (m ((c : Thread nD τ).loc main_arg2))) (m ((c : Thread nD τ).loc main_arg1)) (m ((c : Thread nD τ).loc main_arg0))) := by
  rw [Value.flushed3]
  unfold out0_3
  rw [View.ld_unit_zero (S := S16x128) zero2, View.ld_unit_zero (S := S1x768) zero2, View.ld_unit_zero (S := S16x128x768) zero3]
  obtain ⟨a00, a01, a02, a10, a11, a20, a21, a30, a31, a32, a40, a41⟩ := block_indices t
  rw [mask_block m c t, tok_block m c t, x_block m c t]
  -- from here on the three arrays are opaque: only indices are compared
  generalize spanMask (m ((c : Thread nD τ).loc main_arg2)) = M
  generalize m ((c : Thread nD τ).loc main_arg1) = tok
  generalize m ((c : Thread nD τ).loc main_arg0) = x
  funext j
  refine (Value.canon3_eq _ _ _ _).trans ?_
  have hj0 : (j 0).val < 16 := (j 0).isLt
  have hj1 : (j 1).val < 128 := (j 1).isLt
  have hj2 : (j 2).val < 768 := (j 2).isLt
  have h1 : ((cfg0.win 1).blk t).view.emb (Value.ix3_0 ((cfg0.win 3).xinj (grid0.coords t) j)) = rowOf (((cfg0.win 3).blk t).view.emb j) := by
    funext a; apply Fin.ext
    match a with
    | ⟨0, _⟩ => show win0_1.index t (0 : Fin 2) * 16 + 1 * (j 0).val = win0_3.index t (0 : Fin 3) * 16 + 1 * (j 0).val; omega
    | ⟨1, _⟩ => show win0_1.index t (1 : Fin 2) * 128 + 1 * (j 1).val = win0_3.index t (1 : Fin 3) * 128 + 1 * (j 1).val; omega
  have h2 : ((((cfg0.win 2).blk t).view.emb (Value.ix3_1 ((cfg0.win 3).xinj (grid0.coords t) j))) 0).val = 0
      ∧ ((((cfg0.win 2).blk t).view.emb (Value.ix3_1 ((cfg0.win 3).xinj (grid0.coords t) j))) 1).val = ((((cfg0.win 3).blk t).view.emb j) 2).val := by
    constructor
    · show win0_2.index t (0 : Fin 2) * 1 + 1 * 0 = 0; omega
    · show win0_2.index t (1 : Fin 2) * 768 + 1 * (j 2).val = win0_3.index t (2 : Fin 3) * 768 + 1 * (j 2).val; omega
  have h0 : ((cfg0.win 0).blk t).view.emb (Value.ix3_2 ((cfg0.win 3).xinj (grid0.coords t) j)) = ((cfg0.win 3).blk t).view.emb j := by
    funext a; apply Fin.ext
    match a with
    | ⟨0, _⟩ => show win0_0.index t (0 : Fin 3) * 16 + 1 * (j 0).val = win0_3.index t (0 : Fin 3) * 16 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 768 + 1 * (j 2).val = win0_3.index t (2 : Fin 3) * 768 + 1 * (j 2).val; omega
  exact filled_at M tok x _ _ _ _ h1 h2 h0

/-- What point t writes back to the second result is block t of `penalty`. -/
theorem penalty_block (c : Dev nD) (t : Fin cfg0.N) :
    (dats m 0 c).flushed 4 t = ((cfg0.win 4).blk t).view.read (Elt F)
      (penalty (spanMask (m ((c : Thread nD τ).loc main_arg2)))) := by
  rw [Value.flushed4]
  unfold out0_4
  rw [View.ld_unit_zero (S := S16x128) zero2]
  obtain ⟨a00, a01, a02, a10, a11, a20, a21, a30, a31, a32, a40, a41⟩ := block_indices t
  rw [mask_block m c t]
  generalize spanMask (m ((c : Thread nD τ).loc main_arg2)) = M
  funext j
  refine (Value.canon4_eq _ _).trans ?_
  have hj0 : (j 0).val < 16 := (j 0).isLt
  have hj1 : (j 1).val < 128 := (j 1).isLt
  have h1 : ((cfg0.win 1).blk t).view.emb (Value.ix4_0 ((cfg0.win 4).xinj (grid0.coords t) j)) = ((cfg0.win 4).blk t).view.emb j := by
    funext a; apply Fin.ext
    match a with
    | ⟨0, _⟩ => show win0_1.index t (0 : Fin 2) * 16 + 1 * (j 0).val = win0_4.index t (0 : Fin 2) * 16 + 1 * (j 0).val; omega
    | ⟨1, _⟩ => show win0_1.index t (1 : Fin 2) * 128 + 1 * (j 1).val = win0_4.index t (1 : Fin 2) * 128 + 1 * (j 1).val; omega
  exact penalty_at M _ _ h1

/-- An index of the first result is in point t's block iff each coordinate is in the block's range. -/
theorem mem_block3 (t : Fin cfg0.N) (i : S16x4096x768.Idx) :
    i ∈ ((cfg0.win 3).blk t).view.set ↔ ∀ a : Fin 3, win0_3.index t a * S16x128x768.size a ≤ (i a).val ∧ (i a).val < win0_3.index t a * S16x128x768.size a + S16x128x768.size a := by
  show i ∈ ((View.whole main_v11_0).slice (win0_3.rect t)).set ↔ _
  rw [View.set_slice_whole, Rect.mem_set_unit]
  exact Iff.rfl

theorem mem_block4 (t : Fin cfg0.N) (i : S16x4096.Idx) :
    i ∈ ((cfg0.win 4).blk t).view.set ↔ ∀ a : Fin 2, win0_4.index t a * S16x128.size a ≤ (i a).val ∧ (i a).val < win0_4.index t a * S16x128.size a + S16x128.size a := by
  show i ∈ ((View.whole main_v11_1).slice (win0_4.rect t)).set ↔ _
  rw [View.set_slice_whole, Rect.mem_set_unit]
  exact Iff.rfl

/-- Position p of the long axis lies in block p / 128: the 32 blocks cover the first result. -/
theorem cover3 (i : S16x4096x768.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 768 := (i 2).isLt
  have hN : grid0.N = 32 := N_0
  let t : Fin cfg0.N := ⟨(i 1).val / 128, by show (i 1).val / 128 < grid0.N; omega⟩
  obtain ⟨a00, a01, a02, a10, a11, a20, a21, a30, a31, a32, a40, a41⟩ := block_indices t
  have ht : t.val = (i 1).val / 128 := rfl
  refine ⟨t, flush0_3 t, ?_⟩
  rw [mem_block3]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 128 ≤ (i 1).val ∧ (i 1).val < win0_3.index t (1 : Fin 3) * 128 + 128; omega
  | ⟨2, _⟩ => show win0_3.index t (2 : Fin 3) * 768 ≤ (i 2).val ∧ (i 2).val < win0_3.index t (2 : Fin 3) * 768 + 768; omega

/-- The same for the second result. -/
theorem cover4 (i : S16x4096.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hN : grid0.N = 32 := N_0
  let t : Fin cfg0.N := ⟨(i 1).val / 128, by show (i 1).val / 128 < grid0.N; omega⟩
  obtain ⟨a00, a01, a02, a10, a11, a20, a21, a30, a31, a32, a40, a41⟩ := block_indices t
  have ht : t.val = (i 1).val / 128 := rfl
  refine ⟨t, flush0_4 t, ?_⟩
  rw [mem_block4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 128 ≤ (i 1).val ∧ (i 1).val < win0_4.index t (1 : Fin 2) * 128 + 128; omega

/-- The first result array after the run. -/
theorem final_filled (c : Dev nD) : (dats m 0 c).arrAt 3 cfg0.N
    = filled (spanMask (m ((c : Thread nD τ).loc main_arg2))) (m ((c : Thread nD τ).loc main_arg1)) (m ((c : Thread nD τ).loc main_arg0)) :=
  (dats m 0 c).arrAt_eq_of_cover 3 _ (fun t _ => filled_block m c t) cover3

/-- The second result array after the run. -/
theorem final_penalty (c : Dev nD) : (dats m 0 c).arrAt 4 cfg0.N
    = penalty (spanMask (m ((c : Thread nD τ).loc main_arg2))) :=
  (dats m 0 c).arrAt_eq_of_cover 4 _ (fun t _ => penalty_block m c t) cover4

/-- The kernel's run: every weakly fair execution ends with the first result at `filled` and the
    second at `penalty` of the span mask of `rand`, the arguments unchanged. -/
theorem kernel_run : θ_run defs (onTc (τ := τ) (main (F := F))) ⟨m, fun _ => 0, ρ⟩ fun r => ∀ c : Dev nD,
      r.2.mem ((c : Thread nD τ).loc main_v11_0)
        = filled (spanMask (m ((c : Thread nD τ).loc main_arg2))) (m ((c : Thread nD τ).loc main_arg1)) (m ((c : Thread nD τ).loc main_arg0))
      ∧ r.2.mem ((c : Thread nD τ).loc main_v11_1) = penalty (spanMask (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_filled m c), (h c).2.1.trans (final_penalty m c), (h c).2.2⟩)
    (Value.run_blocks m ρ)

end Cert.SpanFill

end
-- ==== Proof.RefRun.lean ====
/-
  The reference program's run, read back.

  The reference is a straight line of host operations: the span mask of `rand` (the threshold
  compare, the running count of starts, its copy shifted by ten, the difference compared with zero),
  then the two selects.  Listed in order — each helper function's operations at its call site — the
  program is that list run in sequence, so every weakly fair execution terminates with each buffer
  at the fold of the operations over the launch contents.  Read at the two result buffers:
    the first  is  select (mask broadcast to [16, 4096, 768]) (token broadcast likewise) x,
    the second is  select mask (-inf everywhere) (0 everywhere).
-/
import proofs.«148561_j24446953849432_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The program's 26 host operations, in order; a helper function's operations stand where it is called,
    over that call's buffers. -/
abbrev ops : List (HloOp τ sig (Elt F)) :=
  [ nullary main_cst (constant S_ .f32 0x3D851EB8#32),
    unary main_cst main_v0 (broadcastInDim S16x4096 ![] bcast_S_S16x4096 : (⟨S_, .f32⟩ : BufTy).Contents (Elt F) → (⟨S16x4096, .f32⟩ : BufTy).Contents (Elt F)),
    binary main_arg2 main_v0 main_v1 (cmpf .olt : (⟨S16x4096, .f32⟩ : BufTy).Contents (Elt F) → (⟨S16x4096, .f32⟩ : BufTy).Contents (Elt F) → (⟨S16x4096, .i1⟩ : BufTy).Contents (Elt F)),
    unary main_v1 main_v2 ((extui 32 · natLt_1_32) : (⟨S16x4096, .i1⟩ : BufTy).Contents (Elt F) → (⟨S16x4096, .i32⟩ : BufTy).Contents (Elt F)),
    TRef.nullary main_call0.call0.c (constantI S_ 32 0#32),
    TRef.unary main_call0.call0.c main_call0.call0.v0 (broadcastInDim S_ ![] bcast_S_S_),
    TRef.binary (.of main_v2 : TRef sig ⟨S16x4096, .i32⟩) main_call0.call0.v0 main_call0.call0.v1 (fun x v => Host.reduceWindow IntOp.addi ![1, 4096] ![1, 1] ![0, 4095] ![0, 0] x v reduceWindows_S16x4096_S16x4096_w1s1p0_0_w4096s1p4095_0 h_S_),
    nullary main_c (constantI S_ 32 0#32),
    TRef.unary (.of main_c : TRef sig ⟨S_, .i32⟩) main_call1.v0 id,
    TRef.binary (.of main_v3 : TRef sig ⟨S16x4096, .i32⟩) main_call1.v0 main_call1.v1 (fun x v => pad S16x4106 ![0, 10] ![0, 0] ![0, 0] x v pads_S16x4096_S16x4106_000_1000 h_S_),
    unary main_v4 main_v5 ((extractStridedSlice S16x4096 ![0, 0] · slices_S16x4106_S16x4096_0_0) : (⟨S16x4106, .i32⟩ : BufTy).Contents (Elt F) → (⟨S16x4096, .i32⟩ : BufTy).Contents (Elt F)),
    binary main_v3 main_v5 main_v6 (subi : (⟨S16x4096, .i32⟩ : BufTy).Contents (Elt F) → (⟨S16x4096, .i32⟩ : BufTy).Contents (Elt F) → (⟨S16x4096, .i32⟩ : BufTy).Contents (Elt F)),
    nullary main_c_0 (constantI S_ 32 0#32),
    unary main_c_0 main_v7 (broadcastInDim S16x4096 ![] bcast_S_S16x4096 : (⟨S_, .i32⟩ : BufTy).Contents (Elt F) → (⟨S16x4096, .i32⟩ : BufTy).Contents (Elt F)),
    binary main_v6 main_v7 main_v8 (cmpi .sgt : (⟨S16x4096, .i32⟩ : BufTy).Contents (Elt F) → (⟨S16x4096, .i32⟩ : BufTy).Contents (Elt F) → (⟨S16x4096, .i1⟩ : BufTy).Contents (Elt F)),
    unary main_v8 main_v9 (broadcastInDim S16x4096x1 ![0, 1] bcast_S16x4096_S16x4096x1_0_1 : (⟨S16x4096, .i1⟩ : BufTy).Contents (Elt F) → (⟨S16x4096x1, .i1⟩ : BufTy).Contents (Elt F)),
    unary main_arg1 main_v10 (broadcastInDim S1x1x768 ![2] bcast_S768_S1x1x768_2 : (⟨S768, .f32⟩ : BufTy).Contents (Elt F) → (⟨S1x1x768, .f32⟩ : BufTy).Contents (Elt F)),
    TRef.unary (.of main_v9 : TRef sig ⟨S16x4096x1, .i1⟩) main_call2.v0 (broadcastInDim S16x4096x768 ![0, 1, 2] bcast_S16x4096x1_S16x4096x768_0_1_2),
    TRef.unary (.of main_v10 : TRef sig ⟨S1x1x768, .f32⟩) main_call2.v1 (broadcastInDim S16x4096x768 ![0, 1, 2] bcast_S1x1x768_S16x4096x768_0_1_2),
    TRef.ternary main_call2.v0 main_call2.v1 (.of main_arg0 : TRef sig ⟨S16x4096x768, .f32⟩) main_call2.v2 select,
    nullary main_cst_1 (constant S_ .f32 0xFF800000#32),
    nullary main_cst_2 (constant S_ .f32 0x00000000#32),
    TRef.unary (.of main_cst_1 : TRef sig ⟨S_, .f32⟩) main_call3.v0 (broadcastInDim S16x4096 ![] bcast_S_S16x4096),
    TRef.unary (.of main_cst_2 : TRef sig ⟨S_, .f32⟩) main_call3.v1 (broadcastInDim S16x4096 ![] bcast_S_S16x4096),
    TRef.ternary (.of main_v8 : TRef sig ⟨S16x4096, .i1⟩) main_call3.v0 main_call3.v1 main_call3.v2 select,
    unary main_v12 main_v13 (id : (⟨S16x4096, .f32⟩ : BufTy).Contents (Elt F) → (⟨S16x4096, .f32⟩ : BufTy).Contents (Elt F)) ]

set_option maxRecDepth 2048 in
/-- The program is that straight line: the helper functions unfolded at their calls, the sequencing
    reassociated. -/
theorem main_eq (c : Dev nD) : main (F := F) c = seq ops := by
  simp only [main, fn_cumsum.body, fn_cumsum_0.body, fn_pad.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub ..,
    nullary_bufs_sub .., unary_bufs_sub .., binary_bufs_sub ..,
    nullary_bufs_sub .., unary_bufs_sub .., binary_bufs_sub ..,
    unary_bufs_sub .., binary_bufs_sub .., nullary_bufs_sub .., unary_bufs_sub .., binary_bufs_sub ..,
    unary_bufs_sub .., unary_bufs_sub .., unary_bufs_sub .., unary_bufs_sub .., ternary_bufs_sub ..,
    nullary_bufs_sub .., nullary_bufs_sub .., unary_bufs_sub .., unary_bufs_sub .., ternary_bufs_sub ..,
    unary_bufs_sub ..⟩

/-- Every weakly fair execution terminates, every buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The span mask as the reference computes it: the same chain of integer operations as the kernel's host side. -/
def mask (rand : FVec F S16x4096 .f32) : IVec S16x4096 1 :=
  let starts : IVec S16x4096 32 :=
    extui 32 (cmpf .olt rand (broadcastInDim S16x4096 ![] bcast_S_S16x4096 (constant S_ .f32 0x3D851EB8#32))) natLt_1_32
  let count : IVec S16x4096 32 :=
    Host.reduceWindow IntOp.addi ![1, 4096] ![1, 1] ![0, 4095] ![0, 0] starts
      (broadcastInDim S_ ![] bcast_S_S_ (constantI S_ 32 0#32))
      reduceWindows_S16x4096_S16x4096_w1s1p0_0_w4096s1p4095_0 h_S_
  let shifted : IVec S16x4096 32 :=
    extractStridedSlice S16x4096 ![0, 0]
      (pad S16x4106 ![0, 10] ![0, 0] ![0, 0] count (constantI S_ 32 0#32) pads_S16x4096_S16x4106_000_1000 h_S_)
      slices_S16x4106_S16x4096_0_0
  cmpi .sgt (subi count shifted) (broadcastInDim S16x4096 ![] bcast_S_S16x4096 (constantI S_ 32 0#32))

theorem out0_eq (V : Valuation τ sig (Elt F)) :
    (after ops V (main_v11 : DevRef τ sig) : FVec F S16x4096x768 .f32)
      = select (broadcastInDim S16x4096x768 ![0, 1, 2] bcast_S16x4096x1_S16x4096x768_0_1_2
            (broadcastInDim S16x4096x1 ![0, 1] bcast_S16x4096_S16x4096x1_0_1 (mask (V (main_arg2 : DevRef τ sig)))))
          (broadcastInDim S16x4096x768 ![0, 1, 2] bcast_S1x1x768_S16x4096x768_0_1_2
            (broadcastInDim S1x1x768 ![2] bcast_S768_S1x1x768_2 (V (main_arg1 : DevRef τ sig))))
          (V (main_arg0 : DevRef τ sig)) := by
  after_results
  simp only [cast_eq, id_eq]
  rfl

theorem out1_eq (V : Valuation τ sig (Elt F)) :
    (after ops V (main_v13 : DevRef τ sig) : FVec F S16x4096 .f32)
      = select (mask (V (main_arg2 : DevRef τ sig)))
          (broadcastInDim S16x4096 ![] bcast_S_S16x4096 (constant S_ .f32 0xFF800000#32))
          (broadcastInDim S16x4096 ![] bcast_S_S16x4096 (constant S_ .f32 0x00000000#32)) := by
  after_results
  simp only [cast_eq, id_eq]
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

end Cert.ReferenceIdeal.Straight

end
-- ==== Proof.RefValue.lean ====
/-
  The reference's two results are `filled` and `penalty` of the span mask.

  The reference broadcasts the mask [16, 4096] to [16, 4096, 1] and then to [16, 4096, 768], and the
  token [768] to [1, 1, 768] and then to [16, 4096, 768]; read at an index (b, t, d) the first is the
  mask at (b, t) and the second the token at d, so its first select is `filled`.  Its second select
  takes -inf and 0 broadcast from scalars, so it is `penalty`.  Its mask is the same chain of
  integer operations as the kernel's host side, applied to the same array.
-/
import proofs.«148561_j24446953849432_2_alg».proof.Proof.RefRun
import proofs.«148561_j24446953849432_2_alg».proof.Proof.Spec
import proofs.«148561_j24446953849432_2_alg».proof.Proof.Gen.KernelIdeal
import Idealize.ShloMosaic.Lib.Pipeline.Value

noncomputable section

namespace Cert.SpanFill

open Idealize.ShloMosaic Idealize.ShloMosaic.TcCoe Idealize.SL.Sem Idealize.ShloMosaic.StableHlo

variable {F : FTy → Type} [FloatOps F]

/-- The reference's mask is the kernel's: the same operations, literal by literal. -/
theorem ref_mask_eq (rand : FVec F Cert.KernelIdeal.S16x4096 .f32) :
    Cert.ReferenceIdeal.Straight.mask rand = spanMask rand := rfl

section
open Cert.ReferenceIdeal Cert.ReferenceIdeal.Gen

/-- The reference's first select, index by index. -/
theorem ref_filled (M : IVec S16x4096 1) (tok : FVec F S768 .f32) (x : FVec F S16x4096x768 .f32) :
    select (broadcastInDim S16x4096x768 ![0, 1, 2] bcast_S16x4096x1_S16x4096x768_0_1_2
          (broadcastInDim S16x4096x1 ![0, 1] bcast_S16x4096_S16x4096x1_0_1 M))
        (broadcastInDim S16x4096x768 ![0, 1, 2] bcast_S1x1x768_S16x4096x768_0_1_2
          (broadcastInDim S1x1x768 ![2] bcast_S768_S1x1x768_2 tok)) x
      = filled M tok x := by
  funext i
  have hi0 : (i 0).val < 16 := (i 0).isLt
  have hi1 : (i 1).val < 4096 := (i 1).isLt
  have hi2 : (i 2).val < 768 := (i 2).isLt
  have e1 : broadcastInDim S16x4096x768 ![0, 1, 2] bcast_S16x4096x1_S16x4096x768_0_1_2
      (broadcastInDim S16x4096x1 ![0, 1] bcast_S16x4096_S16x4096x1_0_1 M) i = M (rowOf i) := by
    refine (broadcastInDim_apply _ _ _ i
      (fun a => match a with | ⟨0, _⟩ => ⟨(i 0).val, by show (i 0).val < 16; omega⟩ | ⟨1, _⟩ => ⟨(i 1).val, by show (i 1).val < 4096; omega⟩ | ⟨2, _⟩ => ⟨0, by show 0 < 1; omega⟩ : S16x4096x1.Idx)
      (fun a => match a with
        | ⟨0, _⟩ => by show (i 0).val = (if (16 : Nat) = 1 then 0 else (i 0).val); rw [if_neg (by decide)]
        | ⟨1, _⟩ => by show (i 1).val = (if (4096 : Nat) = 1 then 0 else (i 1).val); rw [if_neg (by decide)]
        | ⟨2, _⟩ => by show 0 = (if (1 : Nat) = 1 then 0 else (i 2).val); rw [if_pos rfl])).trans ?_
    exact broadcastInDim_apply _ _ _ _ (rowOf i)
      (fun a => match a with
        | ⟨0, _⟩ => by show (i 0).val = (if (16 : Nat) = 1 then 0 else (i 0).val); rw [if_neg (by decide)]
        | ⟨1, _⟩ => by show (i 1).val = (if (4096 : Nat) = 1 then 0 else (i 1).val); rw [if_neg (by decide)])
  have e2 : broadcastInDim S16x4096x768 ![0, 1, 2] bcast_S1x1x768_S16x4096x768_0_1_2
      (broadcastInDim S1x1x768 ![2] bcast_S768_S1x1x768_2 tok) i = tok (laneOf i) := by
    refine (broadcastInDim_apply _ _ _ i
      (fun a => match a with | ⟨0, _⟩ => ⟨0, by show 0 < 1; omega⟩ | ⟨1, _⟩ => ⟨0, by show 0 < 1; omega⟩ | ⟨2, _⟩ => ⟨(i 2).val, by show (i 2).val < 768; omega⟩ : S1x1x768.Idx)
      (fun a => match a with
        | ⟨0, _⟩ => by show 0 = (if (1 : Nat) = 1 then 0 else (i 0).val); rw [if_pos rfl]
        | ⟨1, _⟩ => by show 0 = (if (1 : Nat) = 1 then 0 else (i 1).val); rw [if_pos rfl]
        | ⟨2, _⟩ => by show (i 2).val = (if (768 : Nat) = 1 then 0 else (i 2).val); rw [if_neg (by decide)])).trans ?_
    exact broadcastInDim_apply _ _ _ _ (laneOf i)
      (fun a => match a with
        | ⟨0, _⟩ => by show (i 2).val = (if (768 : Nat) = 1 then 0 else (i 2).val); rw [if_neg (by decide)])
  show Scalar.select (broadcastInDim S16x4096x768 ![0, 1, 2] bcast_S16x4096x1_S16x4096x768_0_1_2
        (broadcastInDim S16x4096x1 ![0, 1] bcast_S16x4096_S16x4096x1_0_1 M) i)
      (broadcastInDim S16x4096x768 ![0, 1, 2] bcast_S1x1x768_S16x4096x768_0_1_2
        (broadcastInDim S1x1x768 ![2] bcast_S768_S1x1x768_2 tok) i) (x i)
    = Scalar.select (M (rowOf i)) (tok (laneOf i)) (x i)
  rw [e1, e2]

/-- The reference's second select: the two scalars broadcast are the same at every position. -/
theorem ref_penalty (M : IVec S16x4096 1) :
    select M (broadcastInDim S16x4096 ![] bcast_S_S16x4096 (constant (F := F) S_ .f32 0xFF800000#32))
        (broadcastInDim S16x4096 ![] bcast_S_S16x4096 (constant (F := F) S_ .f32 0x00000000#32))
      = penalty M := rfl

/-- The first result buffer after the operations, over any starting contents. -/
theorem ref_out0 (V : Valuation τ sig (Elt F)) :
    (after Straight.ops V (main_v11 : DevRef τ sig) : FVec F S16x4096x768 .f32)
      = filled (spanMask (V (main_arg2 : DevRef τ sig))) (V (main_arg1 : DevRef τ sig)) (V (main_arg0 : DevRef τ sig)) := by
  rw [Straight.out0_eq, ref_mask_eq, ref_filled]

/-- The second result buffer after the operations. -/
theorem ref_out1 (V : Valuation τ sig (Elt F)) :
    (after Straight.ops V (main_v13 : DevRef τ sig) : FVec F S16x4096 .f32)
      = penalty (spanMask (V (main_arg2 : DevRef τ sig))) := by
  rw [Straight.out1_eq, ref_mask_eq, ref_penalty]

/-- The reference's run: every weakly fair execution ends with the first result at `filled` and the
    second at `penalty` of the span mask of `rand`, the arguments unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = filled (spanMask (m ((c.tc : Thread nD τ).loc main_arg2))) (m ((c.tc : Thread nD τ).loc main_arg1)) (m ((c.tc : Thread nD τ).loc main_arg0))
      ∧ r.2.mem ((c.tc : Thread nD τ).loc main_v13) = penalty (spanMask (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v11).trans (ref_out0 (launchContents m c)),
      (h c main_v13).trans (ref_out1 (launchContents m c)),
      (h c main_arg0).trans (Straight.arg0_eq _),
      (h c main_arg1).trans (Straight.arg1_eq _),
      (h c main_arg2).trans (Straight.arg2_eq _)⟩)
    (Straight.run_fold m ρ)

end

end Cert.SpanFill

end
-- ==== Proof.lean ====
/-
  Masking spans of a sequence: the kernel against its reference, over the extended reals.

  Both programs take x : [16, 4096, 768], a token : [768] and rand : [16, 4096].  A position (b, t) is
  masked when one of the ten positions t - 9 .. t of row b has rand < 0.065 (a span of length ten
  started there); both programs decide this by the same integer operations on the host — a running
  count of the starts, the same count shifted by ten places, their difference compared with zero —
  so the mask is one function of rand (`spanMask`, never opened).  The results are
      x_out[b, t, d] = if masked[b, t] then token[d] else x[b, t, d]      (`filled`)
      mask[b, t]     = if masked[b, t] then -inf     else 0               (`penalty`)

  The reference computes both by whole-array selects, after broadcasting the mask and the token
  (Proof/RefRun.lean: its operations listed and run; Proof/RefValue.lean: the broadcasts read at an
  index).  The kernel widens each mask bit to a 32-bit integer on the host and streams x, the widened
  mask and the token through a grid of 32 points, 128 positions each; a block's element is selected
  by "widened bit ≠ 0", which is the bit itself, and the 32 blocks tile the arrays
  (Proof/KernelEntry.lean: the two arrays the host prepares; Proof/KernelBlocks.lean: a block, the
  cover, the run).  No arithmetic on floats occurs: the float words of -inf and 0 are the same in
  both programs and each result element is one of x, token, -inf, 0.  Hence the two runs end with the
  same arrays for every input, finite or not; the precondition is not used.

  The idealized kernel is the kernel's own text read at the ideal instance (nothing was rewritten),
  so that claim is trivial.  The three frames: the two kernels' are the generated frame theorems, the
  reference's is its run with the results dropped.
-/
import proofs.«148561_j24446953849432_2_alg».proof.Defs
import proofs.«148561_j24446953849432_2_alg».proof.Proof.Gen.Kernel
import proofs.«148561_j24446953849432_2_alg».proof.Proof.Gen.Kernel.Skeleton
import proofs.«148561_j24446953849432_2_alg».proof.Proof.Gen.Kernel.Launch
import proofs.«148561_j24446953849432_2_alg».proof.Proof.Gen.Kernel.Points
import proofs.«148561_j24446953849432_2_alg».proof.Proof.Gen.Kernel.Frame
import proofs.«148561_j24446953849432_2_alg».proof.Proof.Gen.KernelIdeal
import proofs.«148561_j24446953849432_2_alg».proof.Proof.Gen.KernelIdeal.Skeleton
import proofs.«148561_j24446953849432_2_alg».proof.Proof.Gen.KernelIdeal.Launch
import proofs.«148561_j24446953849432_2_alg».proof.Proof.Gen.KernelIdeal.Points
import proofs.«148561_j24446953849432_2_alg».proof.Proof.Gen.KernelIdeal.Frame
import proofs.«148561_j24446953849432_2_alg».proof.Proof.Gen.KernelIdeal.Value
import proofs.«148561_j24446953849432_2_alg».proof.Proof.Gen.ReferenceIdeal
import proofs.«148561_j24446953849432_2_alg».proof.Proof.Gen.Pre_finite_inputs
import proofs.«148561_j24446953849432_2_alg».proof.Proof.KernelBlocks
import proofs.«148561_j24446953849432_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates without a fault and leaves its arguments as they were: its run, the results dropped. -/
theorem frame_reference : Cert.frame_ReferenceIdeal := fun m ρ _ =>
  (θ_run Cert.ReferenceIdeal.defs _ _).mono (fun _ h c => (h c).2.2) (Cert.SpanFill.reference_run (F := Ideal) m ρ)

/-- From memories agreeing on x, the token and rand, both programs end with `filled` and `penalty` of the
    span mask of the same rand: equal arrays. -/
theorem algebraic : Cert.algebraic_KernelIdeal_ReferenceIdeal := by
  intro m ρ m' ρ' _ hagree
  refine ⟨_, _, Cert.SpanFill.kernel_run (F := Ideal) m ρ, ?_⟩
  refine (θ_run Cert.ReferenceIdeal.defs _ _).mono (fun _ h c => ?_) (Cert.SpanFill.reference_run (F := Ideal) m' ρ')
  obtain ⟨h0, h1, h2, h3, h4⟩ := h c
  obtain ⟨e0, e1, e2⟩ := hagree c
  refine ⟨?_, ?_, h2, h3, h4⟩
  · rw [h0, e0, e1, e2]
  · rw [h1, e2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
